-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x96x64 : Shape := ⟨4, ![16, 96, 96, 64]⟩
abbrev S3x3x128x128 : Shape := ⟨4, ![3, 3, 128, 128]⟩
abbrev S_ : Shape := ⟨0, ![]⟩

class Facts : Prop where
  bcast_S_S16x96x96x64 : S_.BroadcastsInDim S16x96x96x64 (![] : Fin 0 → Fin S16x96x96x64.rank)
  reducesTo_S16x96x96x64_S_d0_1_2_3 : S16x96x96x64.ReducesTo [0, 1, 2, 3] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_

variable [Facts]

def fn {F : FTy → Type} [FloatOps F] (main_arg0 : FVec F S16x96x96x64 .f32) (main_arg1 : FVec F S3x3x128x128 .f32) : IVec S_ 1 :=
  let main_v0 : FVec F S16x96x96x64 .f32 := Host.absf main_arg0
  let main_cst : FVec F S_ .f32 := constant S_ .f32 0x7F800000#32
  let main_v1 : FVec F S16x96x96x64 .f32 := broadcastInDim S16x96x96x64 ![] bcast_S_S16x96x96x64 main_cst
  let main_v2 : IVec S16x96x96x64 1 := cmpf .olt main_v0 main_v1
  let main_c : IVec S_ 1 := constantI S_ 1 1#1
  let main_v3 : IVec S_ 1 := (fun x v => Host.reduce IntOp.andi x v reducesTo_S16x96x96x64_S_d0_1_2_3 h_S_) main_v2 main_c
  let main_v4 : FVec F S3x3x128x128 .f32 := Host.absf main_arg1
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  main_v8
-- ==== Kernel.lean ====
abbrev S16x96x96x64 : Shape := ⟨4, ![16, 96, 96, 64]⟩
abbrev S3x3x128x128 : Shape := ⟨4, ![3, 3, 128, 128]⟩
abbrev S_ : Shape := ⟨0, ![]⟩
abbrev S16x96x96 : Shape := ⟨3, ![16, 96, 96]⟩
abbrev S16x98x98 : Shape := ⟨3, ![16, 98, 98]⟩
abbrev S1x16x96x96 : Shape := ⟨4, ![1, 16, 96, 96]⟩
abbrev S3x16x96x96 : Shape := ⟨4, ![3, 16, 96, 96]⟩
abbrev S1x3x16x96x96 : Shape := ⟨5, ![1, 3, 16, 96, 96]⟩
abbrev S3x3x16x96x96 : Shape := ⟨5, ![3, 3, 16, 96, 96]⟩
abbrev S3x3x128 : Shape := ⟨3, ![3, 3, 128]⟩
abbrev S3x3x1x128 : Shape := ⟨4, ![3, 3, 1, 128]⟩
abbrev S3x3x16x96x96x128 : Shape := ⟨6, ![3, 3, 16, 96, 96, 128]⟩
abbrev S1x1x2x96x96 : Shape := ⟨5, ![1, 1, 2, 96, 96]⟩
abbrev S1x1x1x128 : Shape := ⟨4, ![1, 1, 1, 128]⟩
abbrev S1x1x2x96x96x128 : Shape := ⟨6, ![1, 1, 2, 96, 96, 128]⟩
abbrev S2x96x96 : Shape := ⟨3, ![2, 96, 96]⟩
abbrev S128 : Shape := ⟨1, ![128]⟩
abbrev S2x96x96x1 : Shape := ⟨4, ![2, 96, 96, 1]⟩
abbrev S2x96x96x128 : Shape := ⟨4, ![2, 96, 96, 128]⟩

abbrev nBuf : Space → Nat
  | .hbm => 36
  | .vmem => 6
  | .smem => 0
  | _ => 0

abbrev bufTy : (tb : Table) → Fin (tcTables nBuf tb) → BufTy
  | .hbm, ⟨0, _⟩ => ⟨S16x96x96x64, .f32⟩
  | .hbm, ⟨1, _⟩ => ⟨S3x3x128x128, .f32⟩
  | .hbm, ⟨2, _⟩ => ⟨S_, .f32⟩
  | .hbm, ⟨3, _⟩ => ⟨S16x96x96, .f32⟩
  | .hbm, ⟨4, _⟩ => ⟨S_, .i32⟩
  | .hbm, ⟨5, _⟩ => ⟨S_, .f32⟩
  | .hbm, ⟨6, _⟩ => ⟨S16x98x98, .f32⟩
  | .hbm, ⟨7, _⟩ => ⟨S16x96x96, .f32⟩
  | .hbm, ⟨8, _⟩ => ⟨S16x96x96, .f32⟩
  | .hbm, ⟨9, _⟩ => ⟨S16x96x96, .f32⟩
  | .hbm, ⟨10, _⟩ => ⟨S1x16x96x96, .f32⟩
  | .hbm, ⟨11, _⟩ => ⟨S1x16x96x96, .f32⟩
  | .hbm, ⟨12, _⟩ => ⟨S1x16x96x96, .f32⟩
  | .hbm, ⟨13, _⟩ => ⟨S3x16x96x96, .f32⟩
  | .hbm, ⟨14, _⟩ => ⟨S16x96x96, .f32⟩
  | .hbm, ⟨15, _⟩ => ⟨S16x96x96, .f32⟩
  | .hbm, ⟨16, _⟩ => ⟨S16x96x96, .f32⟩
  | .hbm, ⟨17, _⟩ => ⟨S1x16x96x96, .f32⟩
  | .hbm, ⟨18, _⟩ => ⟨S1x16x96x96, .f32⟩
  | .hbm, ⟨19, _⟩ => ⟨S1x16x96x96, .f32⟩
  | .hbm, ⟨20, _⟩ => ⟨S3x16x96x96, .f32⟩
  | .hbm, ⟨21, _⟩ => ⟨S16x96x96, .f32⟩
  | .hbm, ⟨22, _⟩ => ⟨S16x96x96, .f32⟩
  | .hbm, ⟨23, _⟩ => ⟨S16x96x96, .f32⟩
  | .hbm, ⟨24, _⟩ => ⟨S1x16x96x96, .f32⟩
  | .hbm, ⟨25, _⟩ => ⟨S1x16x96x96, .f32⟩
  | .hbm, ⟨26, _⟩ => ⟨S1x16x96x96, .f32⟩
  | .hbm, ⟨27, _⟩ => ⟨S3x16x96x96, .f32⟩
  | .hbm, ⟨28, _⟩ => ⟨S1x3x16x96x96, .f32⟩
  | .hbm, ⟨29, _⟩ => ⟨S1x3x16x96x96, .f32⟩
  | .hbm, ⟨30, _⟩ => ⟨S1x3x16x96x96, .f32⟩
  | .hbm, ⟨31, _⟩ => ⟨S3x3x16x96x96, .f32⟩
  | .hbm, ⟨32, _⟩ => ⟨S_, .f32⟩
  | .hbm, ⟨33, _⟩ => ⟨S3x3x128, .f32⟩
  | .hbm, ⟨34, _⟩ => ⟨S3x3x1x128, .f32⟩
  | .hbm, ⟨35, _⟩ => ⟨S3x3x16x96x96x128, .f32⟩
  | .local _ .vmem, ⟨0, _⟩ => ⟨S1x1x2x96x96, .f32⟩
  | .local _ .vmem, ⟨1, _⟩ => ⟨S1x1x2x96x96, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x2x96x96x128, .f32⟩
  | .local _ .vmem, ⟨5, _⟩ => ⟨S1x1x2x96x96x128, .f32⟩
  | _, _ => ⟨S16x96x96x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 3, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

abbrev stage0_0 : Fin 2 → Memref sig .tc .vmem S1x1x2x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x96x96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  reducesTo_S16x96x96x64_S16x96x96_d3 : S16x96x96x64.ReducesTo [3] S16x96x96
  h_S_ : 0 < S_.numel
  pads_S16x96x96_S16x98x98_000_110_110 : S16x96x96.Pads (![0, 1, 1] : Fin 3 → Nat) ![0, 1, 1] ![0, 0, 0] S16x98x98
  slices_S16x98x98_S16x96x96_0_0_0 : S16x98x98.Slices ![0, 0, 0] S16x96x96
  slices_S16x98x98_S16x96x96_0_0_1 : S16x98x98.Slices ![0, 0, 1] S16x96x96
  slices_S16x98x98_S16x96x96_0_0_2 : S16x98x98.Slices ![0, 0, 2] S16x96x96
  bcast_S16x96x96_S1x16x96x96_1_2_3 : S16x96x96.BroadcastsInDim S1x16x96x96 (![1, 2, 3] : Fin 3 → Fin S1x16x96x96.rank)
  concatenates_S1x16x96x96_S1x16x96x96_S1x16x96x96_S3x16x96x96_d0 : Shape.Concatenates [S1x16x96x96, S1x16x96x96, S1x16x96x96] S3x16x96x96 0
  slices_S16x98x98_S16x96x96_0_1_0 : S16x98x98.Slices ![0, 1, 0] S16x96x96
  slices_S16x98x98_S16x96x96_0_1_1 : S16x98x98.Slices ![0, 1, 1] S16x96x96
  slices_S16x98x98_S16x96x96_0_1_2 : S16x98x98.Slices ![0, 1, 2] S16x96x96
  slices_S16x98x98_S16x96x96_0_2_0 : S16x98x98.Slices ![0, 2, 0] S16x96x96
  slices_S16x98x98_S16x96x96_0_2_1 : S16x98x98.Slices ![0, 2, 1] S16x96x96
  slices_S16x98x98_S16x96x96_0_2_2 : S16x98x98.Slices ![0, 2, 2] S16x96x96
  bcast_S3x16x96x96_S1x3x16x96x96_1_2_3_4 : S3x16x96x96.BroadcastsInDim S1x3x16x96x96 (![1, 2, 3, 4] : Fin 4 → Fin S1x3x16x96x96.rank)
  concatenates_S1x3x16x96x96_S1x3x16x96x96_S1x3x16x96x96_S3x3x16x96x96_d0 : Shape.Concatenates [S1x3x16x96x96, S1x3x16x96x96, S1x3x16x96x96] S3x3x16x96x96 0
  reducesTo_S3x3x128x128_S3x3x128_d2 : S3x3x128x128.ReducesTo [2] S3x3x128
  bcast_S3x3x128_S3x3x1x128_0_1_3 : S3x3x128.BroadcastsInDim S3x3x1x128 (![0, 1, 3] : Fin 3 → Fin S3x3x1x128.rank)
  inb_S1x1x2x96x96_S1x1x2x96x96_0_0_0_0_0 : ∀ a, (![0, 0, 0, 0, 0] : Fin 5 → Nat) a + S1x1x2x96x96.size a ≤ S1x1x2x96x96.size a
  h_S1x1x2x96x96 : 0 < S1x1x2x96x96.numel
  shapeCasts_S1x1x2x96x96_S2x96x96 : S1x1x2x96x96.ShapeCasts S2x96x96
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S128 : S1x1x1x128.ShapeCasts S128
  shapeCasts_S2x96x96_S2x96x96x1 : S2x96x96.ShapeCasts S2x96x96x1
  shapeCasts_S128_S1x1x1x128 : S128.ShapeCasts S1x1x1x128
  broadcasts_S2x96x96x1_S2x96x96x128 : S2x96x96x1.Broadcasts S2x96x96x128
  broadcasts_S1x1x1x128_S2x96x96x128 : S1x1x1x128.Broadcasts S2x96x96x128
  inb_S1x1x2x96x96x128_S1x1x2x96x96x128_0_0_0_0_0_0 : ∀ a, (![0, 0, 0, 0, 0, 0] : Fin 6 → Nat) a + S1x1x2x96x96x128.size a ≤ S1x1x2x96x96x128.size a
  h_S1x1x2x96x96x128 : 0 < S1x1x2x96x96x128.numel
  shapeCasts_S1x1x2x96x96x128_S2x96x96x128 : S1x1x2x96x96x128.ShapeCasts S2x96x96x128
  shapeCasts_S2x96x96x128_S1x1x2x96x96x128 : S2x96x96x128.ShapeCasts S1x1x2x96x96x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2x96x96.size a ≤ S3x3x16x96x96.size a
  hwx0_0 : ∀ i : grid0.Coords, EltTy.bits .f32 = 32 ∨ (Rect.block (s := S3x3x16x96x96) S1x1x2x96x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x128.size a ≤ S3x3x1x128.size a
  hwx0_1 : ∀ i : grid0.Coords, EltTy.bits .f32 = 32 ∨ (Rect.block (s := S3x3x1x128) S1x1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2x96x96x128.size a ≤ S3x3x16x96x96x128.size a
  hwx0_2 : ∀ i : grid0.Coords, EltTy.bits .f32 = 32 ∨ (Rect.block (s := S3x3x16x96x96x128) S1x1x2x96x96x128.size (cc0_transform_2 i) (hinb0_2 i)).WholeWords (EltTy.packing .f32)

variable [Facts₀]

abbrev win0_0 : Pipeline.Window sig grid0 :=
  Pipeline.Window.ofSpec (Memref.whole main_v26) S1x1x2x96x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1x2x96x96x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x96x96x64 : Shape := ⟨4, ![16, 96, 96, 64]⟩
abbrev S3x3x128x128 : Shape := ⟨4, ![3, 3, 128, 128]⟩
abbrev S_ : Shape := ⟨0, ![]⟩
abbrev S16x96x96 : Shape := ⟨3, ![16, 96, 96]⟩
abbrev S16x98x98 : Shape := ⟨3, ![16, 98, 98]⟩
abbrev S1x16x96x96 : Shape := ⟨4, ![1, 16, 96, 96]⟩
abbrev S3x16x96x96 : Shape := ⟨4, ![3, 16, 96, 96]⟩
abbrev S1x3x16x96x96 : Shape := ⟨5, ![1, 3, 16, 96, 96]⟩
abbrev S3x3x16x96x96 : Shape := ⟨5, ![3, 3, 16, 96, 96]⟩
abbrev S3x3x128 : Shape := ⟨3, ![3, 3, 128]⟩
abbrev S3x3x16x96x96x1 : Shape := ⟨6, ![3, 3, 16, 96, 96, 1]⟩
abbrev S3x3x1x1x1x128 : Shape := ⟨6, ![3, 3, 1, 1, 1, 128]⟩
abbrev S3x3x16x96x96x128 : Shape := ⟨6, ![3, 3, 16, 96, 96, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x96x96x64, .f32⟩
  | .hbm, ⟨1, _⟩ => ⟨S3x3x128x128, .f32⟩
  | .hbm, ⟨2, _⟩ => ⟨S_, .f32⟩
  | .hbm, ⟨3, _⟩ => ⟨S16x96x96, .f32⟩
  | .hbm, ⟨4, _⟩ => ⟨S_, .i32⟩
  | .hbm, ⟨5, _⟩ => ⟨S_, .f32⟩
  | .hbm, ⟨6, _⟩ => ⟨S16x98x98, .f32⟩
  | .hbm, ⟨7, _⟩ => ⟨S16x96x96, .f32⟩
  | .hbm, ⟨8, _⟩ => ⟨S16x96x96, .f32⟩
  | .hbm, ⟨9, _⟩ => ⟨S16x96x96, .f32⟩
  | .hbm, ⟨10, _⟩ => ⟨S1x16x96x96, .f32⟩
  | .hbm, ⟨11, _⟩ => ⟨S1x16x96x96, .f32⟩
  | .hbm, ⟨12, _⟩ => ⟨S1x16x96x96, .f32⟩
  | .hbm, ⟨13, _⟩ => ⟨S3x16x96x96, .f32⟩
  | .hbm, ⟨14, _⟩ => ⟨S16x96x96, .f32⟩
  | .hbm, ⟨15, _⟩ => ⟨S16x96x96, .f32⟩
  | .hbm, ⟨16, _⟩ => ⟨S16x96x96, .f32⟩
  | .hbm, ⟨17, _⟩ => ⟨S1x16x96x96, .f32⟩
  | .hbm, ⟨18, _⟩ => ⟨S1x16x96x96, .f32⟩
  | .hbm, ⟨19, _⟩ => ⟨S1x16x96x96, .f32⟩
  | .hbm, ⟨20, _⟩ => ⟨S3x16x96x96, .f32⟩
  | .hbm, ⟨21, _⟩ => ⟨S16x96x96, .f32⟩
  | .hbm, ⟨22, _⟩ => ⟨S16x96x96, .f32⟩
  | .hbm, ⟨23, _⟩ => ⟨S16x96x96, .f32⟩
  | .hbm, ⟨24, _⟩ => ⟨S1x16x96x96, .f32⟩
  | .hbm, ⟨25, _⟩ => ⟨S1x16x96x96, .f32⟩
  | .hbm, ⟨26, _⟩ => ⟨S1x16x96x96, .f32⟩
  | .hbm, ⟨27, _⟩ => ⟨S3x16x96x96, .f32⟩
  | .hbm, ⟨28, _⟩ => ⟨S1x3x16x96x96, .f32⟩
  | .hbm, ⟨29, _⟩ => ⟨S1x3x16x96x96, .f32⟩
  | .hbm, ⟨30, _⟩ => ⟨S1x3x16x96x96, .f32⟩
  | .hbm, ⟨31, _⟩ => ⟨S3x3x16x96x96, .f32⟩
  | .hbm, ⟨32, _⟩ => ⟨S_, .f32⟩
  | .hbm, ⟨33, _⟩ => ⟨S3x3x128, .f32⟩
  | .hbm, ⟨34, _⟩ => ⟨S3x3x16x96x96x1, .f32⟩
  | .hbm, ⟨35, _⟩ => ⟨S3x3x1x1x1x128, .f32⟩
  | .hbm, ⟨36, _⟩ => ⟨S3x3x16x96x96x128, .f32⟩
  | .hbm, ⟨37, _⟩ => ⟨S3x3x16x96x96x128, .f32⟩
  | .hbm, ⟨38, _⟩ => ⟨S3x3x16x96x96x128, .f32⟩
  | _, _ => ⟨S16x96x96x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]

class Facts₀ : Prop where
  reducesTo_S16x96x96x64_S16x96x96_d3 : S16x96x96x64.ReducesTo [3] S16x96x96
  h_S_ : 0 < S_.numel
  pads_S16x96x96_S16x98x98_000_110_110 : S16x96x96.Pads (![0, 1, 1] : Fin 3 → Nat) ![0, 1, 1] ![0, 0, 0] S16x98x98
  slices_S16x98x98_S16x96x96_0_0_0 : S16x98x98.Slices ![0, 0, 0] S16x96x96
  slices_S16x98x98_S16x96x96_0_0_1 : S16x98x98.Slices ![0, 0, 1] S16x96x96
  slices_S16x98x98_S16x96x96_0_0_2 : S16x98x98.Slices ![0, 0, 2] S16x96x96
  bcast_S16x96x96_S1x16x96x96_1_2_3 : S16x96x96.BroadcastsInDim S1x16x96x96 (![1, 2, 3] : Fin 3 → Fin S1x16x96x96.rank)
  concatenates_S1x16x96x96_S1x16x96x96_S1x16x96x96_S3x16x96x96_d0 : Shape.Concatenates [S1x16x96x96, S1x16x96x96, S1x16x96x96] S3x16x96x96 0
  slices_S16x98x98_S16x96x96_0_1_0 : S16x98x98.Slices ![0, 1, 0] S16x96x96
  slices_S16x98x98_S16x96x96_0_1_1 : S16x98x98.Slices ![0, 1, 1] S16x96x96
  slices_S16x98x98_S16x96x96_0_1_2 : S16x98x98.Slices ![0, 1, 2] S16x96x96
  slices_S16x98x98_S16x96x96_0_2_0 : S16x98x98.Slices ![0, 2, 0] S16x96x96
  slices_S16x98x98_S16x96x96_0_2_1 : S16x98x98.Slices ![0, 2, 1] S16x96x96
  slices_S16x98x98_S16x96x96_0_2_2 : S16x98x98.Slices ![0, 2, 2] S16x96x96
  bcast_S3x16x96x96_S1x3x16x96x96_1_2_3_4 : S3x16x96x96.BroadcastsInDim S1x3x16x96x96 (![1, 2, 3, 4] : Fin 4 → Fin S1x3x16x96x96.rank)
  concatenates_S1x3x16x96x96_S1x3x16x96x96_S1x3x16x96x96_S3x3x16x96x96_d0 : Shape.Concatenates [S1x3x16x96x96, S1x3x16x96x96, S1x3x16x96x96] S3x3x16x96x96 0
  reducesTo_S3x3x128x128_S3x3x128_d2 : S3x3x128x128.ReducesTo [2] S3x3x128
  bcast_S3x3x16x96x96_S3x3x16x96x96x1_0_1_2_3_4 : S3x3x16x96x96.BroadcastsInDim S3x3x16x96x96x1 (![0, 1, 2, 3, 4] : Fin 5 → Fin S3x3x16x96x96x1.rank)
  bcast_S3x3x128_S3x3x1x1x1x128_0_1_5 : S3x3x128.BroadcastsInDim S3x3x1x1x1x128 (![0, 1, 5] : Fin 3 → Fin S3x3x1x1x1x128.rank)
  bcast_S3x3x16x96x96x1_S3x3x16x96x96x128_0_1_2_3_4_5 : S3x3x16x96x96x1.BroadcastsInDim S3x3x16x96x96x128 (![0, 1, 2, 3, 4, 5] : Fin 6 → Fin S3x3x16x96x96x128.rank)
  bcast_S3x3x1x1x1x128_S3x3x16x96x96x128_0_1_2_3_4_5 : S3x3x1x1x1x128.BroadcastsInDim S3x3x16x96x96x128 (![0, 1, 2, 3, 4, 5] : Fin 6 → Fin S3x3x16x96x96x128.rank)

variable [Facts₀]

class Facts : Prop extends Facts₀ where

variable [Facts]
-- ==== Proof.KernelRegion.lean ====
/-
  The program's one launch, for the printed program `Kernel` read at any float instance `F`.

  The grid has 72 points: 3 × 3 taps × 8 batch tiles. At a point (x, y, b) the body is handed the [2, 96, 96] block of
  shifted channel sums of tap (x, y) and batch pair b, and the [128] row of weight sums of tap (x, y); it stores their outer
  product — block entry (n, i, j, o) is sum entry (n, i, j) times weight entry o — over the WHOLE output block
  [2, 96, 96, 128] of tap (x, y), batch pair b. It also reads the output block before storing over it, and makes no use
  of what it read.

  Proved here: every weakly fair execution of @main terminates without a fault; when it ends the result array holds,
  block by block, that outer product of the input arrays' blocks as the launch found them (`run`), and both argument
  arrays are as they were (`frame`): the host operations ahead of the launch write only their own result buffers, and the
  launch writes only the result array and its own staging buffers.
-/
import proofs.«173127_j48146583388363_1_alg».proof.Proof.Gen.Kernel.Launch
import proofs.«173127_j48146583388363_1_alg».proof.Proof.Gen.Kernel.Skeleton
import proofs.«173127_j48146583388363_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations ahead of the launch -/

/-- What each buffer of core `c` holds when the launch begins: the initial memory carried through the three stretches of
    host operations (the channel sum; the zero padding; the nine shifted slices stacked, and the weight sum). -/
abbrev entry (c : Dev nD) (b : Ref sig .tc) : Buf (Elt F) ((c : Thread nD τ).loc b) :=
  StableHlo.after (List.flatten [hostOps0, hostOps0_1, hostOps0_2]) (fun b => m (c, b)) b

/-- No host operation allocates a buffer. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is the three stretches of host operations, then the launch. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- No host operation writes the first argument array: the launch finds it as it was. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The blocks -/

/-- The block of window `w`'s array that grid point `t` names, read off the array as the launch found it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The staging buffer of the shifted sums holds the point's block at every point: a point that does not fetch it has
    the block index of the point before. -/
theorem found_sums_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- The staging buffer of the weight sums likewise: it is fetched once per tap, and the eight batch tiles of a tap name
    the same row. -/
theorem found_weights_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-! ## The argument arrays at the end -/

/-- A run that leaves every buffer the launch does not stage as the launch found it leaves both argument arrays as
    they were at the start: no window stages either, and no host operation wrote either. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c)⟩) h

/-! ## The body -/

/-- The three rectangles the body touches: each is its whole buffer. -/
abbrev wholeSums : Rect S1x1x2x96x96 := Rect.unit (s := S1x1x2x96x96) ![0, 0, 0, 0, 0] S1x1x2x96x96.size inb_S1x1x2x96x96_S1x1x2x96x96_0_0_0_0_0
abbrev wholeWeights : Rect S1x1x1x128 := Rect.unit (s := S1x1x1x128) ![0, 0, 0, 0] S1x1x1x128.size inb_S1x1x1x128_S1x1x1x128_0_0_0_0
abbrev wholeOut : Rect S1x1x2x96x96x128 := Rect.unit (s := S1x1x2x96x96x128) ![0, 0, 0, 0, 0, 0] S1x1x2x96x96x128.size inb_S1x1x2x96x96x128_S1x1x2x96x96x128_0_0_0_0_0_0

/-- What the output's staging buffer holds after the body, from the two input blocks: the one store's payload — the
    outer product of the sums and the weights — over the whole buffer. -/
def product (x0 : Vec F S1x1x2x96x96 .f32) (x1 : Vec F S1x1x1x128 .f32) : Vec F S1x1x2x96x96x128 .f32 :=
  View.canon [⟨wholeOut, k0_pay1 (View.ld x0 wholeSums) (View.ld x1 wholeWeights)⟩]

/-- The one store covers the output's staging buffer. -/
theorem store_covers (p0 : Vec F S1x1x2x96x96x128 .f32) (y : S1x1x2x96x96x128.Idx) :
    ∃ pc ∈ ([⟨wholeOut, p0⟩] : List (View.Piece (Elt F) S1x1x2x96x96x128 .f32)), y ∈ pc.1.set :=
  View.cover_of_tiled [⟨wholeOut, p0⟩] S1x1x2x96x96x128.size (by rfl) y

set_option maxHeartbeats 1000000 in
/-- The body, run on whole staging buffers — the two inputs' at contents `x0`, `x1`, the output's at anything —, ends
    with the inputs' as they were and the output's at `product x0 x1`. -/
theorem body_runs (c : Dev nD) (E : Set ℕ) (i : grid0.Coords) (arg3 : Memref sig .tc .vmem S1x1x2x96x96 .f32) (harg3 : arg3.IsWhole) (arg4 : Memref sig .tc .vmem S1x1x1x128 .f32) (harg4 : arg4.IsWhole) (arg5 : Memref sig .tc .vmem S1x1x2x96x96x128 .f32) (harg5 : arg5.IsWhole)
    (x0 : Vec F S1x1x2x96x96 .f32) (x1 : Vec F S1x1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (product x0 x1)) -∗ K ⟨⟩))
      ⊢ wp frame (wpE (defs₀ (F := F)) Variants.none c none) E (cc0__bcast_mul_kernel i arg3 harg3 arg4 harg4 arg5 harg5) K := by
  simp only [cc0__bcast_mul_kernel_eq_skeleton]; unfold cc0__bcast_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## What the launch keeps per point -/

/-- On core `c`: the arrays are as the launch found them; after the body at point `t` each input's staging buffer holds
    its block and the output's the product of the two blocks; the launch's other scoped storage passes through
    untouched; nothing is owed to another core. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => product (block m c 0 t) (block m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_sums (c : Dev nD) (t : Fin cfg0.N) : (dats m 0 c).after 0 t = block m c 0 t := by dsimp only [dats]
theorem after_weights (c : Dev nD) (t : Fin cfg0.N) : (dats m 0 c).after 1 t = block m c 1 t := by dsimp only [dats]
theorem after_out (c : Dev nD) (t : Fin cfg0.N) : (dats m 0 c).after 2 t = product (block m c 0 t) (block m c 1 t) := by dsimp only [dats]

theorem found_sums (c : Dev nD) (t : Fin cfg0.N) (d) : (dats m 0 c).before 0 t d = block m c 0 t :=
  found_sums_of m (dats m 0 c) (arrays_eq m c 0) (after_sums m c) t d
theorem found_weights (c : Dev nD) (t : Fin cfg0.N) (d) : (dats m 0 c).before 1 t d = block m c 1 t :=
  found_weights_of m (dats m 0 c) (arrays_eq m c 1) (after_weights m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold the point's blocks, so `body_runs` applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_sums, found_weights]
  rw [show (dats m 0 c).Φ t.succ = (dats m 0 c).Φ t.castSucc from rfl,
    show (dats m 0 c).owesAt () t.succ = (dats m 0 c).owesAt () t.castSucc from rfl,
    after_sums, after_weights, after_out]
  iintro ⟨HΦ, Ho, ⟨%d0, H0⟩, ⟨%d1, H1⟩, ⟨%d2, H2⟩⟩
  iapply (body_runs c Set.univ (grid0.coords t) _ _ _ _ _ _ (block m c 0 t) (block m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main from `m` with zero counters terminates, without a fault, with each staged
    array at what its blocks were left at and every other unscoped buffer as the launch found it. -/
theorem run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := entry m) (hmain := main_to_launch m Variants.none) (hA := arrays_eq m) (hΦ := fun _ _ => rfl)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept_of m ρ (dats m) (arrays_eq m) (run m ρ)

end Cert.Kernel.Region

end
-- ==== Proof.KernelIdealRegion.lean ====
/-
  The program's one launch, for the printed program `KernelIdeal` read at any float instance `F`.

  The grid has 72 points: 3 × 3 taps × 8 batch tiles. At a point (x, y, b) the body is handed the [2, 96, 96] block of
  shifted channel sums of tap (x, y) and batch pair b, and the [128] row of weight sums of tap (x, y); it stores their outer
  product — block entry (n, i, j, o) is sum entry (n, i, j) times weight entry o — over the WHOLE output block
  [2, 96, 96, 128] of tap (x, y), batch pair b. It also reads the output block before storing over it, and makes no use
  of what it read.

  Proved here: every weakly fair execution of @main terminates without a fault; when it ends the result array holds,
  block by block, that outer product of the input arrays' blocks as the launch found them (`run`), and both argument
  arrays are as they were (`frame`): the host operations ahead of the launch write only their own result buffers, and the
  launch writes only the result array and its own staging buffers.
-/
import proofs.«173127_j48146583388363_1_alg».proof.Proof.Gen.KernelIdeal.Launch
import proofs.«173127_j48146583388363_1_alg».proof.Proof.Gen.KernelIdeal.Skeleton
import proofs.«173127_j48146583388363_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations ahead of the launch -/

/-- What each buffer of core `c` holds when the launch begins: the initial memory carried through the three stretches of
    host operations (the channel sum; the zero padding; the nine shifted slices stacked, and the weight sum). -/
abbrev entry (c : Dev nD) (b : Ref sig .tc) : Buf (Elt F) ((c : Thread nD τ).loc b) :=
  StableHlo.after (List.flatten [hostOps0, hostOps0_1, hostOps0_2]) (fun b => m (c, b)) b

/-- No host operation allocates a buffer. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is the three stretches of host operations, then the launch. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- No host operation writes the first argument array: the launch finds it as it was. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The blocks -/

/-- The block of window `w`'s array that grid point `t` names, read off the array as the launch found it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The staging buffer of the shifted sums holds the point's block at every point: a point that does not fetch it has
    the block index of the point before. -/
theorem found_sums_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- The staging buffer of the weight sums likewise: it is fetched once per tap, and the eight batch tiles of a tap name
    the same row. -/
theorem found_weights_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-! ## The argument arrays at the end -/

/-- A run that leaves every buffer the launch does not stage as the launch found it leaves both argument arrays as
    they were at the start: no window stages either, and no host operation wrote either. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c)⟩) h

/-! ## The body -/

/-- The three rectangles the body touches: each is its whole buffer. -/
abbrev wholeSums : Rect S1x1x2x96x96 := Rect.unit (s := S1x1x2x96x96) ![0, 0, 0, 0, 0] S1x1x2x96x96.size inb_S1x1x2x96x96_S1x1x2x96x96_0_0_0_0_0
abbrev wholeWeights : Rect S1x1x1x128 := Rect.unit (s := S1x1x1x128) ![0, 0, 0, 0] S1x1x1x128.size inb_S1x1x1x128_S1x1x1x128_0_0_0_0
abbrev wholeOut : Rect S1x1x2x96x96x128 := Rect.unit (s := S1x1x2x96x96x128) ![0, 0, 0, 0, 0, 0] S1x1x2x96x96x128.size inb_S1x1x2x96x96x128_S1x1x2x96x96x128_0_0_0_0_0_0

/-- What the output's staging buffer holds after the body, from the two input blocks: the one store's payload — the
    outer product of the sums and the weights — over the whole buffer. -/
def product (x0 : Vec F S1x1x2x96x96 .f32) (x1 : Vec F S1x1x1x128 .f32) : Vec F S1x1x2x96x96x128 .f32 :=
  View.canon [⟨wholeOut, k0_pay1 (View.ld x0 wholeSums) (View.ld x1 wholeWeights)⟩]

/-- The one store covers the output's staging buffer. -/
theorem store_covers (p0 : Vec F S1x1x2x96x96x128 .f32) (y : S1x1x2x96x96x128.Idx) :
    ∃ pc ∈ ([⟨wholeOut, p0⟩] : List (View.Piece (Elt F) S1x1x2x96x96x128 .f32)), y ∈ pc.1.set :=
  View.cover_of_tiled [⟨wholeOut, p0⟩] S1x1x2x96x96x128.size (by rfl) y

set_option maxHeartbeats 1000000 in
/-- The body, run on whole staging buffers — the two inputs' at contents `x0`, `x1`, the output's at anything —, ends
    with the inputs' as they were and the output's at `product x0 x1`. -/
theorem body_runs (c : Dev nD) (E : Set ℕ) (i : grid0.Coords) (arg3 : Memref sig .tc .vmem S1x1x2x96x96 .f32) (harg3 : arg3.IsWhole) (arg4 : Memref sig .tc .vmem S1x1x1x128 .f32) (harg4 : arg4.IsWhole) (arg5 : Memref sig .tc .vmem S1x1x2x96x96x128 .f32) (harg5 : arg5.IsWhole)
    (x0 : Vec F S1x1x2x96x96 .f32) (x1 : Vec F S1x1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (product x0 x1)) -∗ K ⟨⟩))
      ⊢ wp frame (wpE (defs₀ (F := F)) Variants.none c none) E (cc0__bcast_mul_kernel i arg3 harg3 arg4 harg4 arg5 harg5) K := by
  simp only [cc0__bcast_mul_kernel_eq_skeleton]; unfold cc0__bcast_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## What the launch keeps per point -/

/-- On core `c`: the arrays are as the launch found them; after the body at point `t` each input's staging buffer holds
    its block and the output's the product of the two blocks; the launch's other scoped storage passes through
    untouched; nothing is owed to another core. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => product (block m c 0 t) (block m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_sums (c : Dev nD) (t : Fin cfg0.N) : (dats m 0 c).after 0 t = block m c 0 t := by dsimp only [dats]
theorem after_weights (c : Dev nD) (t : Fin cfg0.N) : (dats m 0 c).after 1 t = block m c 1 t := by dsimp only [dats]
theorem after_out (c : Dev nD) (t : Fin cfg0.N) : (dats m 0 c).after 2 t = product (block m c 0 t) (block m c 1 t) := by dsimp only [dats]

theorem found_sums (c : Dev nD) (t : Fin cfg0.N) (d) : (dats m 0 c).before 0 t d = block m c 0 t :=
  found_sums_of m (dats m 0 c) (arrays_eq m c 0) (after_sums m c) t d
theorem found_weights (c : Dev nD) (t : Fin cfg0.N) (d) : (dats m 0 c).before 1 t d = block m c 1 t :=
  found_weights_of m (dats m 0 c) (arrays_eq m c 1) (after_weights m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold the point's blocks, so `body_runs` applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_sums, found_weights]
  rw [show (dats m 0 c).Φ t.succ = (dats m 0 c).Φ t.castSucc from rfl,
    show (dats m 0 c).owesAt () t.succ = (dats m 0 c).owesAt () t.castSucc from rfl,
    after_sums, after_weights, after_out]
  iintro ⟨HΦ, Ho, ⟨%d0, H0⟩, ⟨%d1, H1⟩, ⟨%d2, H2⟩⟩
  iapply (body_runs c Set.univ (grid0.coords t) _ _ _ _ _ _ (block m c 0 t) (block m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main from `m` with zero counters terminates, without a fault, with each staged
    array at what its blocks were left at and every other unscoped buffer as the launch found it. -/
theorem run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := entry m) (hmain := main_to_launch m Variants.none) (hA := arrays_eq m) (hΦ := fun _ _ => rfl)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept_of m ρ (dats m) (arrays_eq m) (run m ρ)

end Cert.KernelIdeal.Region

end
-- ==== Proof.BodyEntry.lean ====
/-
  The body's arithmetic, read at one entry. The body reshapes the [1, 1, 2, 96, 96] block of sums to [2, 96, 96, 1] and the
  [1, 1, 1, 128] row of weights to itself by way of [128], spreads the first along a new last axis of 128 and the second
  down the 2 · 96 · 96 rows, multiplies entry by entry, and lays the result out as [1, 1, 2, 96, 96, 128]. So the stored
  entry (0, 0, n, i, j, o) is the sum at (0, 0, n, i, j) times the weight at (0, 0, 0, o): a reshape keeps the row-major
  position, and a spread reads coordinate 0 on the axis of extent one. Stated for any float instance.
-/
import proofs.«173127_j48146583388363_1_alg».proof.Proof.Gen.KernelIdeal.Skeleton
import Idealize.ShloMosaic.Lib.Pipeline.Value
import Idealize.ShloMosaic.Lib.ValueIdxRank6

noncomputable section

namespace Cert.KernelIdeal.Body

open Idealize.ShloMosaic Cert.KernelIdeal Cert.KernelIdeal.Gen

variable {F : FTy → Type} [FloatOps F]

/-- The entry of the block of sums that output block entry `j` reads: `j` without its last coordinate. -/
abbrev sumOf (j : S1x1x2x96x96x128.Idx) : S1x1x2x96x96.Idx := fun a => match a with
  | ⟨0, _⟩ => ⟨0, Nat.one_pos⟩
  | ⟨1, _⟩ => ⟨0, Nat.one_pos⟩
  | ⟨2, _⟩ => ⟨(j 2).val, (j 2).isLt⟩
  | ⟨3, _⟩ => ⟨(j 3).val, (j 3).isLt⟩
  | ⟨4, _⟩ => ⟨(j 4).val, (j 4).isLt⟩

/-- The entry of the row of weights that output block entry `j` reads: `j`'s last coordinate. -/
abbrev weightOf (j : S1x1x2x96x96x128.Idx) : S1x1x1x128.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(j 5).val, (j 5).isLt⟩

/-- The stored block, entry by entry: the sum times the weight. -/
theorem payload_apply (x0 : Vec F S1x1x2x96x96 .f32) (x1 : Vec F S1x1x1x128 .f32) (j : S1x1x2x96x96x128.Idx) :
    k0_pay1 x0 x1 j = FloatOps.mulf (x0 (sumOf j)) (x1 (weightOf j)) := by
  have h0 : (j 0).val = 0 := by have := (j 0).isLt; simp at this; omega
  have h1 : (j 1).val = 0 := by have := (j 1).isLt; simp at this; omega
  have b2 : (j 2).val < 2 := (j 2).isLt
  have b3 : (j 3).val < 96 := (j 3).isLt
  have b4 : (j 4).val < 96 := (j 4).isLt
  have b5 : (j 5).val < 128 := (j 5).isLt
  -- the four coordinates of the product before its last reshape
  let k8 : S2x96x96x128.Idx := fun a => match a with
    | ⟨0, _⟩ => ⟨(j 2).val, b2⟩ | ⟨1, _⟩ => ⟨(j 3).val, b3⟩ | ⟨2, _⟩ => ⟨(j 4).val, b4⟩ | ⟨3, _⟩ => ⟨(j 5).val, b5⟩
  let k4 : S2x96x96x1.Idx := fun a => match a with
    | ⟨0, _⟩ => ⟨(j 2).val, b2⟩ | ⟨1, _⟩ => ⟨(j 3).val, b3⟩ | ⟨2, _⟩ => ⟨(j 4).val, b4⟩ | ⟨3, _⟩ => ⟨0, Nat.one_pos⟩
  let k3 : S2x96x96.Idx := fun a => match a with
    | ⟨0, _⟩ => ⟨(j 2).val, b2⟩ | ⟨1, _⟩ => ⟨(j 3).val, b3⟩ | ⟨2, _⟩ => ⟨(j 4).val, b4⟩
  unfold k0_pay1
  refine (shapeCast_apply _ _ j k8 ?_).trans ?_
  · rw [Shape.rowMajor_val_four, Shape.rowMajor_val_six]
    show (((j 2).val * 96 + (j 3).val) * 96 + (j 4).val) * 128 + (j 5).val
      = (((((j 0).val * 1 + (j 1).val) * 2 + (j 2).val) * 96 + (j 3).val) * 96 + (j 4).val) * 128 + (j 5).val
    rw [h0, h1]; omega
  show FloatOps.mulf _ _ = _
  congr 1
  · refine (broadcastTo_apply _ _ k8 k4 ?_).trans ?_
    · intro a
      match a with
      | ⟨0, _⟩ => rfl | ⟨1, _⟩ => rfl | ⟨2, _⟩ => rfl | ⟨3, _⟩ => rfl
    refine (shapeCast_apply _ _ k4 k3 ?_).trans ?_
    · rw [Shape.rowMajor_val_three, Shape.rowMajor_val_four]
      show ((j 2).val * 96 + (j 3).val) * 96 + (j 4).val = (((j 2).val * 96 + (j 3).val) * 96 + (j 4).val) * 1 + 0
      omega
    refine (shapeCast_apply _ _ k3 (sumOf j) ?_).trans rfl
    rw [Shape.rowMajor_val_five, Shape.rowMajor_val_three]
    show (((0 * 1 + 0) * 2 + (j 2).val) * 96 + (j 3).val) * 96 + (j 4).val = ((j 2).val * 96 + (j 3).val) * 96 + (j 4).val
    omega
  · rw [shapeCast_shapeCast]
    refine (broadcastTo_apply _ _ k8 (weightOf j) ?_).trans rfl
    intro a
    match a with
    | ⟨0, _⟩ => rfl | ⟨1, _⟩ => rfl | ⟨2, _⟩ => rfl | ⟨3, _⟩ => rfl

end Cert.KernelIdeal.Body

end
-- ==== Proof.KernelIdealWhole.lean ====
/-
  From blocks to the whole result array of the idealized kernel, at any float instance.

  Write `s` for the [3, 3, 16, 96, 96] array of shifted channel sums and `w` for the [3, 3, 1, 128] array of weight sums, both
  as the launch finds them. The specification is the array `tapProduct s w`, whose entry (x, y, b, i, j, o) is
  s(x, y, b, i, j) · w(x, y, 0, o). Grid point (x, y, p) handles the output block of tap (x, y) and batches 2p, 2p + 1; the
  block of `s` it is handed has the same first three block coordinates and the block of `w` the same first two, so what the
  point writes back is exactly that block of `tapProduct s w`. The 3 · 3 · 8 output blocks tile the array — entry
  (x, y, b, …) lies in the block of point (x, y, b / 2) — so the result array ends as `tapProduct s w`.
-/
import proofs.«173127_j48146583388363_1_alg».proof.Proof.KernelIdealRegion
import proofs.«173127_j48146583388363_1_alg».proof.Proof.BodyEntry
import Idealize.ShloMosaic.Lib.Pipeline.Value

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen Cert.KernelIdeal.Region

variable {F : FTy → Type} [FloatOps F]
variable (m : (ℓ : Loc nD τ sig) → Buf (Elt F) ℓ) (ρ : Dev nD → PrngReg)

/-! ## The specification -/

/-- The entry of the sums that result entry `i` reads: `i` without its last coordinate. -/
abbrev sumAt (i : S3x3x16x96x96x128.Idx) : S3x3x16x96x96.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩

/-- The entry of the weights that result entry `i` reads: the tap's two coordinates and the output channel. -/
abbrev weightAt (i : S3x3x16x96x96x128.Idx) : S3x3x1x128.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 5).val, (i 5).isLt⟩

/-- Each tap's shifted sums times that tap's weight sums, one output channel at a time. -/
def tapProduct (s : S3x3x16x96x96.Idx → Elt F .f32) (w : S3x3x1x128.Idx → Elt F .f32) : S3x3x16x96x96x128.Idx → Elt F .f32 :=
  fun i => FloatOps.mulf (s (sumAt i)) (w (weightAt i))

/-! ## What a point writes back -/

theorem zero6 : (![0, 0, 0, 0, 0, 0] : Fin 6 → Nat) = fun _ => 0 := funext fun a => by fin_cases a <;> rfl
theorem zero5 : (![0, 0, 0, 0, 0] : Fin 5 → Nat) = fun _ => 0 := funext fun a => by fin_cases a <;> rfl
theorem zero4 : (![0, 0, 0, 0] : Fin 4 → Nat) = fun _ => 0 := funext fun a => by fin_cases a <;> rfl

/-- The three index maps over the grid: the sums' block follows the output's on the tap and batch-pair axes, the weights'
    on the tap axes, every other block coordinate is zero, and the output's stay in range. -/
theorem index_maps : ∀ t : Fin cfg0.N,
    win0_0.index t (0 : Fin 5) = win0_2.index t (0 : Fin 6) ∧ win0_0.index t (1 : Fin 5) = win0_2.index t (1 : Fin 6)
    ∧ win0_0.index t (2 : Fin 5) = win0_2.index t (2 : Fin 6) ∧ win0_0.index t (3 : Fin 5) = 0 ∧ win0_0.index t (4 : Fin 5) = 0
    ∧ win0_1.index t (0 : Fin 4) = win0_2.index t (0 : Fin 6) ∧ win0_1.index t (1 : Fin 4) = win0_2.index t (1 : Fin 6)
    ∧ win0_1.index t (2 : Fin 4) = 0 ∧ win0_1.index t (3 : Fin 4) = 0
    ∧ win0_2.index t (3 : Fin 6) = 0 ∧ win0_2.index t (4 : Fin 6) = 0 ∧ win0_2.index t (5 : Fin 6) = 0
    ∧ win0_2.index t (0 : Fin 6) ≤ 2 ∧ win0_2.index t (1 : Fin 6) ≤ 2 ∧ win0_2.index t (2 : Fin 6) ≤ 7 :=
  (by decide +kernel : ∀ t : Fin grid0.N, _)

/-- Every (tap, tap, batch pair) is some point's output block. -/
theorem index_onto : ∀ (q0 : Fin 3) (q1 : Fin 3) (q2 : Fin 8), ∃ t : Fin cfg0.N, win0_2.index t = ![q0.val, q1.val, q2.val, 0, 0, 0] :=
  (by decide +kernel : ∀ (q0 : Fin 3) (q1 : Fin 3) (q2 : Fin 8), ∃ t : Fin grid0.N, win0_2.index t = ![q0.val, q1.val, q2.val, 0, 0, 0])

/-- What point `t` writes back is block `t` of the specification over the arrays the launch found. -/
theorem flushed_eq (c : Dev nD) (t : Fin cfg0.N) :
    (dats m 0 c).flushed 2 t = ((cfg0.win 2).blk t).view.read (Elt F) (tapProduct (entry m c main_v26) (entry m c main_v28)) := by
  show (cfg0.win 2).cut (grid0.coords t) ((dats m 0 c).after 2 t) = _
  rw [after_out]
  unfold product
  rw [View.canon_unit_zero zero6]
  simp only [View.ld_unit_zero (S := S1x1x2x96x96) zero5, View.ld_unit_zero (S := S1x1x1x128) zero4]
  obtain ⟨e0, e1, e2, e3, e4, f0, f1, f2, f3, g3, g4, g5, -, -, -⟩ := index_maps t
  funext j
  refine (Body.payload_apply _ _ j).trans ?_
  have j0 : (j 0).val < 1 := (j 0).isLt
  have j1 : (j 1).val < 1 := (j 1).isLt
  show FloatOps.mulf (entry m c main_v26 (((cfg0.win 0).blk t).view.emb (Body.sumOf j))) (entry m c main_v28 (((cfg0.win 1).blk t).view.emb (Body.weightOf j)))
    = FloatOps.mulf (entry m c main_v26 (sumAt (((cfg0.win 2).blk t).view.emb j))) (entry m c main_v28 (weightAt (((cfg0.win 2).blk t).view.emb j)))
  have hs : ((cfg0.win 0).blk t).view.emb (Body.sumOf j) = sumAt (((cfg0.win 2).blk t).view.emb j) := by
    funext a; apply Fin.ext
    match a with
    | ⟨0, _⟩ => show win0_0.index t (0 : Fin 5) * 1 + 1 * 0 = win0_2.index t (0 : Fin 6) * 1 + 1 * (j 0).val; omega
    | ⟨1, _⟩ => show win0_0.index t (1 : Fin 5) * 1 + 1 * 0 = win0_2.index t (1 : Fin 6) * 1 + 1 * (j 1).val; omega
    | ⟨2, _⟩ => show win0_0.index t (2 : Fin 5) * 2 + 1 * (j 2).val = win0_2.index t (2 : Fin 6) * 2 + 1 * (j 2).val; omega
    | ⟨3, _⟩ => show win0_0.index t (3 : Fin 5) * 96 + 1 * (j 3).val = win0_2.index t (3 : Fin 6) * 96 + 1 * (j 3).val; omega
    | ⟨4, _⟩ => show win0_0.index t (4 : Fin 5) * 96 + 1 * (j 4).val = win0_2.index t (4 : Fin 6) * 96 + 1 * (j 4).val; omega
  have hw : ((cfg0.win 1).blk t).view.emb (Body.weightOf j) = weightAt (((cfg0.win 2).blk t).view.emb j) := by
    funext a; apply Fin.ext
    match a with
    | ⟨0, _⟩ => show win0_1.index t (0 : Fin 4) * 1 + 1 * 0 = win0_2.index t (0 : Fin 6) * 1 + 1 * (j 0).val; omega
    | ⟨1, _⟩ => show win0_1.index t (1 : Fin 4) * 1 + 1 * 0 = win0_2.index t (1 : Fin 6) * 1 + 1 * (j 1).val; omega
    | ⟨2, _⟩ => show win0_1.index t (2 : Fin 4) * 1 + 1 * 0 = 0; omega
    | ⟨3, _⟩ => show win0_1.index t (3 : Fin 4) * 128 + 1 * (j 5).val = win0_2.index t (5 : Fin 6) * 128 + 1 * (j 5).val; omega
  rw [hs, hw]

/-! ## The blocks tile the array -/

/-- An entry of the array is in point `t`'s output block iff each coordinate is in the block's range on its axis. -/
theorem mem_block (t : Fin cfg0.N) (i : S3x3x16x96x96x128.Idx) :
    i ∈ ((cfg0.win 2).blk t).view.set ↔ ∀ a : Fin 6, win0_2.index t a * S1x1x2x96x96x128.size a ≤ (i a).val ∧ (i a).val < win0_2.index t a * S1x1x2x96x96x128.size a + S1x1x2x96x96x128.size a := by
  show i ∈ ((View.whole main_v29).slice (win0_2.rect t)).set ↔ _
  rw [View.set_slice_whole, Rect.mem_set_unit]
  exact Iff.rfl

/-- Every entry of the result array lies in some point's output block: entry (x, y, b, …) in that of (x, y, b / 2). -/
theorem tiled (i : S3x3x16x96x96x128.Idx) : ∃ t : Fin cfg0.N, (cfg0.win 2).flush t = true ∧ i ∈ ((cfg0.win 2).blk t).view.set := by
  have hi0 : (i 0).val < 3 := (i 0).isLt
  have hi1 : (i 1).val < 3 := (i 1).isLt
  have hi2 : (i 2).val < 16 := (i 2).isLt
  have hi3 : (i 3).val < 96 := (i 3).isLt
  have hi4 : (i 4).val < 96 := (i 4).isLt
  have hi5 : (i 5).val < 128 := (i 5).isLt
  obtain ⟨t, ht⟩ := index_onto ⟨(i 0).val, hi0⟩ ⟨(i 1).val, hi1⟩ ⟨(i 2).val / 2, by omega⟩
  have q0 : win0_2.index t (0 : Fin 6) = (i 0).val := congrFun ht 0
  have q1 : win0_2.index t (1 : Fin 6) = (i 1).val := congrFun ht 1
  have q2 : win0_2.index t (2 : Fin 6) = (i 2).val / 2 := congrFun ht 2
  have q3 : win0_2.index t (3 : Fin 6) = 0 := congrFun ht 3
  have q4 : win0_2.index t (4 : Fin 6) = 0 := congrFun ht 4
  have q5 : win0_2.index t (5 : Fin 6) = 0 := congrFun ht 5
  refine ⟨t, flush0_2 t, ?_⟩
  rw [mem_block]
  intro a
  match a with
  | ⟨0, _⟩ => show win0_2.index t (0 : Fin 6) * 1 ≤ (i 0).val ∧ (i 0).val < win0_2.index t (0 : Fin 6) * 1 + 1; omega
  | ⟨1, _⟩ => show win0_2.index t (1 : Fin 6) * 1 ≤ (i 1).val ∧ (i 1).val < win0_2.index t (1 : Fin 6) * 1 + 1; omega
  | ⟨2, _⟩ => show win0_2.index t (2 : Fin 6) * 2 ≤ (i 2).val ∧ (i 2).val < win0_2.index t (2 : Fin 6) * 2 + 2; omega
  | ⟨3, _⟩ => show win0_2.index t (3 : Fin 6) * 96 ≤ (i 3).val ∧ (i 3).val < win0_2.index t (3 : Fin 6) * 96 + 96; omega
  | ⟨4, _⟩ => show win0_2.index t (4 : Fin 6) * 96 ≤ (i 4).val ∧ (i 4).val < win0_2.index t (4 : Fin 6) * 96 + 96; omega
  | ⟨5, _⟩ => show win0_2.index t (5 : Fin 6) * 128 ≤ (i 5).val ∧ (i 5).val < win0_2.index t (5 : Fin 6) * 128 + 128; omega

/-- The result array after the launch is the specification over the arrays the launch found. -/
theorem result_eq (c : Dev nD) : (dats m 0 c).arrAt 2 cfg0.N = tapProduct (entry m c main_v26) (entry m c main_v28) :=
  (dats m 0 c).arrAt_eq_of_cover 2 (tapProduct (entry m c main_v26) (entry m c main_v28)) (fun t _ => flushed_eq m c t) tiled

/-! ## The run, read -/

/-- Every weakly fair execution of @main terminates without a fault, the result array at `tapProduct` of the sums and
    weights the host operations computed, the two argument arrays unchanged. -/
theorem run_product : θ_run defs (onTc (τ := τ) (main (F := F))) ⟨m, fun _ => 0, ρ⟩ fun r => ∀ c : Dev nD,
      r.2.mem ((c : Thread nD τ).loc main_v29) = tapProduct (entry m c main_v26) (entry m c main_v28)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result_eq m c),
      ((h c).2 main_arg0 (Pipeline.mem_restRefs_of main_arg0 (by decide) (by decide))).trans (entry_arg0 m c),
      ((h c).2 main_arg1 (Pipeline.mem_restRefs_of main_arg1 (by decide) (by decide))).trans (entry_arg1 m c)⟩)
    (run m ρ)

end Cert.KernelIdeal.Whole

end
-- ==== Proof.ReferenceProduct.lean ====
/-
  The reference computes the kernel's specification.

  Both programs begin with the same host operations: the channel sum, the zero padding, the nine shifted slices stacked into
  the [3, 3, 16, 96, 96] array `s`, and the weight sum `v` of shape [3, 3, 128]. The kernel's program then lays `v` out as
  [3, 3, 1, 128] for its launch; the reference spreads `s` along a new last axis and `v` along three new middle axes and
  multiplies entry by entry. A spread reads coordinate 0 on each new axis, so the reference's entry (x, y, b, i, j, o) is
  s(x, y, b, i, j) · v(x, y, o), which is the kernel's s(x, y, b, i, j) · w(x, y, 0, o) with w(x, y, 0, o) = v(x, y, o).
  The same factors in the same order: no law of arithmetic is used, and the statement holds at every float instance.
-/
import proofs.«173127_j48146583388363_1_alg».proof.Proof.KernelIdealWhole
import proofs.«173127_j48146583388363_1_alg».proof.Proof.Gen.ReferenceIdeal.Run
import proofs.«173127_j48146583388363_1_alg».proof.Proof.Gen.ReferenceIdeal.Read

set_option maxRecDepth 16384

noncomputable section

namespace Cert.Bridge

open Idealize.ShloMosaic Idealize.ShloMosaic.TcCoe Idealize.SL.Sem Idealize.ShloMosaic.StableHlo
open Cert.KernelIdeal.Whole

variable {F : FTy → Type} [FloatOps F]

/-- The weight sums as the kernel's launch finds them: the [3, 3, 128] sum laid out as [3, 3, 1, 128]. -/
def weightRows (v : Cert.ReferenceIdeal.S3x3x128.Idx → Elt F .f32) : Cert.KernelIdeal.S3x3x1x128.Idx → Elt F .f32 :=
  broadcastInDim Cert.KernelIdeal.S3x3x1x128 ![0, 1, 3] Cert.KernelIdeal.Gen.bcast_S3x3x128_S3x3x1x128_0_1_3 v

/-- The reference's result is the specification over its own stacked sums and its weight sum laid out in rows. -/
theorem reference_eq (x0 : Cert.ReferenceIdeal.S16x96x96x64.Idx → Elt F .f32) (x1 : Cert.ReferenceIdeal.S3x3x128x128.Idx → Elt F .f32) :
    Cert.ReferenceIdeal.Read.val_main_v32 (F := F) x0 x1
      = tapProduct (Cert.ReferenceIdeal.Read.val_main_v26 (F := F) x0) (weightRows (Cert.ReferenceIdeal.Read.val_main_v27 (F := F) x1)) := by
  funext i
  rw [Cert.ReferenceIdeal.Read.val_main_v32_apply, Cert.ReferenceIdeal.Read.val_main_v30_apply, Cert.ReferenceIdeal.Read.val_main_v28_apply,
    Cert.ReferenceIdeal.Read.val_main_v31_apply, Cert.ReferenceIdeal.Read.val_main_v29_apply]
  have hs : Cert.ReferenceIdeal.Read.idx_main_v28 (Cert.ReferenceIdeal.Read.idx_main_v30 i) = sumAt i :=
    funext fun a => Fin.ext (by match a with | ⟨0, _⟩ => rfl | ⟨1, _⟩ => rfl | ⟨2, _⟩ => rfl | ⟨3, _⟩ => rfl | ⟨4, _⟩ => rfl)
  have hw : weightRows (Cert.ReferenceIdeal.Read.val_main_v27 (F := F) x1) (weightAt i)
      = Cert.ReferenceIdeal.Read.val_main_v27 (F := F) x1 (Cert.ReferenceIdeal.Read.idx_main_v29 (Cert.ReferenceIdeal.Read.idx_main_v31 i)) := by
    unfold weightRows
    generalize Cert.ReferenceIdeal.Read.val_main_v27 (F := F) x1 = v
    exact broadcastInDim_apply _ _ v (weightAt i) _ fun a => by
      match a with
      | ⟨0, _⟩ => show (i 0).val = if (3 : Nat) = 1 then 0 else (i 0).val; rw [if_neg (by decide)]
      | ⟨1, _⟩ => show (i 1).val = if (3 : Nat) = 1 then 0 else (i 1).val; rw [if_neg (by decide)]
      | ⟨2, _⟩ => show (i 5).val = if (128 : Nat) = 1 then 0 else (i 5).val; rw [if_neg (by decide)]
  show FloatOps.mulf (Cert.ReferenceIdeal.Read.val_main_v26 (F := F) x0 (Cert.ReferenceIdeal.Read.idx_main_v28 (Cert.ReferenceIdeal.Read.idx_main_v30 i)))
      (Cert.ReferenceIdeal.Read.val_main_v27 (F := F) x1 (Cert.ReferenceIdeal.Read.idx_main_v29 (Cert.ReferenceIdeal.Read.idx_main_v31 i)))
    = FloatOps.mulf (Cert.ReferenceIdeal.Read.val_main_v26 (F := F) x0 (sumAt i)) (weightRows (Cert.ReferenceIdeal.Read.val_main_v27 (F := F) x1) (weightAt i))
  rw [hs, hw]

/-! ## What the kernel's launch finds is what the reference computes -/

variable (m : (ℓ : Loc Cert.KernelIdeal.nD Cert.KernelIdeal.τ Cert.KernelIdeal.sig) → Buf (Elt F) ℓ)

set_option maxHeartbeats 4000000 in
/-- The stacked shifted sums: the kernel program's host operations are the reference's, one for one. -/
theorem found_sums (c : Dev Cert.KernelIdeal.nD) :
    (Cert.KernelIdeal.Region.entry m c Cert.KernelIdeal.main_v26 : Cert.KernelIdeal.S3x3x16x96x96.Idx → Elt F .f32)
      = Cert.ReferenceIdeal.Read.val_main_v26 (F := F) (m ((c.tc : Thread Cert.KernelIdeal.nD Cert.KernelIdeal.τ).loc Cert.KernelIdeal.main_arg0)) := by
  dsimp only [Cert.KernelIdeal.Region.entry]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp <;> rfl

set_option maxHeartbeats 4000000 in
/-- The weight sums, laid out in rows. -/
theorem found_weights (c : Dev Cert.KernelIdeal.nD) :
    (Cert.KernelIdeal.Region.entry m c Cert.KernelIdeal.main_v28 : Cert.KernelIdeal.S3x3x1x128.Idx → Elt F .f32)
      = weightRows (Cert.ReferenceIdeal.Read.val_main_v27 (F := F) (m ((c.tc : Thread Cert.KernelIdeal.nD Cert.KernelIdeal.τ).loc Cert.KernelIdeal.main_arg1))) := by
  dsimp only [Cert.KernelIdeal.Region.entry]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp <;> rfl

end Cert.Bridge

end
-- ==== Proof.lean ====
/-
  The certificate of the kernel against its reference: for every tap (x, y) of a 3 × 3 window, the batch's zero-padded,
  shifted channel sums times that tap's weight sums — out[x, y, b, i, j, o] = shifted[x, y, b, i, j] · wsum[x, y, o].

  The kernel's program computes the shifted sums and the weight sums by host operations and forms the products in one launch
  over a 3 × 3 × 8 grid, each point storing one whole output block; the reference computes the same sums by the same host
  operations and forms the products by spreading both factors to the result's shape. Read over the extended reals the two
  results are the same array, entry by entry, with the same two factors in the same order; the precondition (finite
  inputs) is not used.

  The three frame claims: each program runs to the end, faults nowhere and leaves its two argument arrays unchanged
  (the kernel's program at the word-level instance and at the ideal one by the same proof, written for any float instance;
  the reference by its run). The idealization rewrote nothing, so it preserves the program trivially.
-/
import proofs.«173127_j48146583388363_1_alg».proof.Defs
import proofs.«173127_j48146583388363_1_alg».proof.Proof.Gen.Kernel
import proofs.«173127_j48146583388363_1_alg».proof.Proof.Gen.KernelIdeal
import proofs.«173127_j48146583388363_1_alg».proof.Proof.Gen.ReferenceIdeal
import proofs.«173127_j48146583388363_1_alg».proof.Proof.Gen.Pre_finite_inputs
import proofs.«173127_j48146583388363_1_alg».proof.Proof.KernelRegion
import proofs.«173127_j48146583388363_1_alg».proof.Proof.KernelIdealRegion
import proofs.«173127_j48146583388363_1_alg».proof.Proof.KernelIdealWhole
import proofs.«173127_j48146583388363_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel's program as printed runs to the end, faults nowhere, and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the same result array: the products of the
    shifted sums and the weight sums that both compute from the arguments by the same host operations. -/
theorem algebraic : Cert.algebraic_KernelIdeal_ReferenceIdeal := by
  intro m ρ m' ρ' _ hagree
  refine ⟨fun c => Cert.KernelIdeal.Whole.tapProduct (Cert.KernelIdeal.Region.entry m c Cert.KernelIdeal.main_v26)
      (Cert.KernelIdeal.Region.entry m c Cert.KernelIdeal.main_v28), Cert.KernelIdeal.Whole.run_product (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2, Cert.Bridge.reference_eq]
  show _ = Cert.KernelIdeal.Whole.tapProduct (Cert.KernelIdeal.Region.entry m c Cert.KernelIdeal.main_v26)
    (Cert.KernelIdeal.Region.entry m c Cert.KernelIdeal.main_v28)
  rw [Cert.Bridge.found_sums m c, Cert.Bridge.found_weights m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
